-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S64x2048x2048 : Shape := ⟨3, ![64, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S2048x64 : Shape := ⟨2, ![2048, 64]⟩
abbrev S1024x64 : Shape := ⟨2, ![1024, 64]⟩
abbrev S1024x1024 : Shape := ⟨2, ![1024, 1024]⟩
abbrev S1x1024x1024 : Shape := ⟨3, ![1, 1024, 1024]⟩
abbrev S4x16x2048x2048 : Shape := ⟨4, ![4, 16, 2048, 2048]⟩

abbrev nBuf : Space → Nat
  | .hbm => 10
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S64x2048x2048, .f32⟩
  | .hbm, ⟨8, _⟩ => ⟨S4x16x2048x64, .f32⟩
  | .hbm, ⟨9, _⟩ => ⟨S4x16x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x2048, .f32⟩
  | .local _ .vmem, ⟨9, _⟩ => ⟨S1x1024x2048, .f32⟩
  | .local _ .vmem, ⟨10, _⟩ => ⟨S2048x64, .bf16⟩
  | .local _ .vmem, ⟨11, _⟩ => ⟨S2048x64, .bf16⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S2048x64_S1024x64_0_0 : ∀ a, (![0, 0] : Fin 2 → Nat) a + S1024x64.size a ≤ S2048x64.size a
  h_S1024x64 : 0 < S1024x64.numel
  inb_S1x1024x2048_S1x1024x1024_0_0_0 : ∀ a, (![0, 0, 0] : Fin 3 → Nat) a + S1x1024x1024.size a ≤ S1x1024x2048.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S2048x64_S1024x64_1024_0 : ∀ a, (![1024, 0] : Fin 2 → Nat) a + S1024x64.size a ≤ S2048x64.size a
  inb_S1x1024x2048_S1x1024x1024_0_0_1024 : ∀ a, (![0, 0, 1024] : Fin 3 → Nat) a + S1x1024x1024.size a ≤ S1x1024x2048.size a
  shapeCasts_S1024x64_S1x1024x64 : S1024x64.ShapeCasts S1x1024x64
  shapeCasts_S64x2048x64_S4x16x2048x64 : S64x2048x64.ShapeCasts S4x16x2048x64
  shapeCasts_S64x2048x2048_S4x16x2048x2048 : S64x2048x2048.ShapeCasts S4x16x2048x2048
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S64x2048x2048.size a
  hwx0_4 : ∀ i : grid0.Coords, EltTy.bits .f32 = 32 ∨ (Rect.block (s := S64x2048x2048) S1x1024x2048.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048x2048, .f32⟩
  | .hbm, ⟨10, _⟩ => ⟨S4x16x2048x2048, .f32⟩
  | .hbm, ⟨11, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelPieces.lean ====
/-
  What one grid point leaves in its two output blocks and in the two scratch buffers, as terms of the blocks it was given.

  The body keeps a cast copy of the whole key block and of the whole value block in two scratch buffers. At a point whose
  second grid coordinate is zero it first stores those copies; at any other point the scratch still holds what was stored
  earlier. In both cases it then reads the first 1024 rows and the last 1024 rows of each copy, forms for each half the
  positive part of the product of the scaled query block with the key rows, stores these two [1024, 1024] tiles side by side
  into the weights block, and stores into the context block the zero start plus the first tile times the first value rows,
  plus the second tile times the last value rows. So, with the scratch contents as parameters, both cases leave the same
  terms, and the storing case leaves them at the copies of the blocks of that very point.
-/
import proofs.«136513_j40166534152796_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KPieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Rows 0 … 1023 of a [2048, 64] scratch buffer. -/
abbrev rowsLo : Rect S2048x64 := Rect.unit (s := S2048x64) ![0, 0] S1024x64.size inb_S2048x64_S1024x64_0_0
/-- Rows 1024 … 2047 of it. -/
abbrev rowsHi : Rect S2048x64 := Rect.unit (s := S2048x64) ![1024, 0] S1024x64.size inb_S2048x64_S1024x64_1024_0
/-- Columns 0 … 1023 of the [1, 1024, 2048] weights block. -/
abbrev colsLo : Rect S1x1024x2048 := Rect.unit (s := S1x1024x2048) ![0, 0, 0] S1x1024x1024.size inb_S1x1024x2048_S1x1024x1024_0_0_0
/-- Columns 1024 … 2047 of it. -/
abbrev colsHi : Rect S1x1024x2048 := Rect.unit (s := S1x1024x2048) ![0, 0, 1024] S1x1024x1024.size inb_S1x1024x2048_S1x1024x1024_0_0_1024

/-- The first half of a scratch buffer's rows. -/
abbrev lo (X : Vec F S2048x64 .bf16) : Vec F S1024x64 .bf16 := View.ld X rowsLo
/-- The second half. -/
abbrev hi (X : Vec F S2048x64 .bf16) : Vec F S1024x64 .bf16 := View.ld X rowsHi

/-- The context block a point leaves: from its query block and the two scratch contents. -/
def ctxBlk (x0 : Vec F S1x1024x64 .f32) (xs0 xs1 : Vec F S2048x64 .bf16) : Vec F S1x1024x64 .f32 :=
  k0_pay1 (k0_pay7 x0 (lo xs0) (lo xs1)) (hi xs1) (k0_pay10 x0 (hi xs0))

/-- The weights block a point leaves: two tiles side by side, from its query block and the key scratch. -/
def wBlk (x0 : Vec F S1x1024x64 .f32) (xs0 : Vec F S2048x64 .bf16) : Vec F S1x1024x2048 .f32 :=
  View.canon [(⟨colsHi, k0_pay9 x0 (hi xs0)⟩ : View.Piece (Elt F) S1x1024x2048 .f32), ⟨colsLo, k0_pay6 x0 (lo xs0)⟩]

/-- A read-back, through any rectangle, of a buffer that one store has just filled whole reads the stored value there. -/
theorem readCov_whole_store {sig' : RefSig} {κ : Kind} {sp : Space} (v : View sig' κ sp S2048x64 .bf16)
    (w : Vec F S2048x64 .bf16) (r : Rect S2048x64) :
    v.readCov [(⟨Rect.unit (s := S2048x64) ![0, 0] S2048x64.size inb_S2048x64_S2048x64_0_0, w⟩ : View.Piece (Elt F) S2048x64 .bf16)] r.toLoadRect
      = View.ld w r := by
  rw [View.readCov_eq_canon_ld _ _ _ (fun y => ⟨_, List.mem_singleton_self _, View.mem_set_unit_zero hz2 inb_S2048x64_S2048x64_0_0 y⟩),
    View.canon_unit_zero hz2]

/-- A point that does not store into the scratch: the context block. -/
theorem out_B_3 (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x1024x2048 .f32) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (x0 : Vec F S1x1024x64 .f32) (x1 : Vec F S1x2048x64 .f32) (x2 : Vec F S1x2048x64 .f32) (xs0 xs1 : Vec F S2048x64 .bf16) :
    out0_B_3 c i arg2 harg2 arg3 harg3 arg4 harg4 arg5 harg5 arg6 harg6 arg7 harg7 arg8 harg8 hc0 x0 x1 x2 xs0 xs1 = ctxBlk x0 xs0 xs1 := by
  unfold out0_B_3
  rw [View.read_writes_eq_canon _ _ _ (cover0_B_3 c i arg2 harg2 arg3 harg3 arg4 harg4 arg5 harg5 arg6 harg6 arg7 harg7 arg8 harg8 hc0 x0 x1 x2 xs0 xs1)]
  unfold kernelRun0_B
  dsimp only
  sl_unfold_words
  rw [View.canon_unit_zero hz3]
  simp only [View.readAt_eq_ld, harg2.read_unread, harg7.read_unread, harg8.read_unread, View.ld_unit_zero (S := S1x1024x64) hz3]
  rfl

/-- A point that does not store into the scratch: the weights block. -/
theorem out_B_4 (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x1024x2048 .f32) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (x0 : Vec F S1x1024x64 .f32) (x1 : Vec F S1x2048x64 .f32) (x2 : Vec F S1x2048x64 .f32) (xs0 xs1 : Vec F S2048x64 .bf16) :
    out0_B_4 c i arg2 harg2 arg3 harg3 arg4 harg4 arg5 harg5 arg6 harg6 arg7 harg7 arg8 harg8 hc0 x0 x1 x2 xs0 xs1 = wBlk x0 xs0 := by
  unfold out0_B_4
  rw [View.read_writes_eq_canon _ _ _ (cover0_B_4 c i arg2 harg2 arg3 harg3 arg4 harg4 arg5 harg5 arg6 harg6 arg7 harg7 arg8 harg8 hc0 x0 x1 x2 xs0 xs1)]
  unfold kernelRun0_B
  dsimp only
  sl_unfold_words
  simp only [View.readAt_eq_ld, harg2.read_unread, harg7.read_unread, harg8.read_unread, View.ld_unit_zero (S := S1x1024x64) hz3]
  rfl

/-- A storing point leaves the cast copy of its key block in the first scratch buffer, -/
theorem sout_A_0 (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x1024x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x1024x64 .f32) (x1 : Vec F S1x2048x64 .f32) (x2 : Vec F S1x2048x64 .f32) :
    sout0_A_0 c i arg2 harg2 arg3 harg3 arg4 harg4 arg5 harg5 arg6 harg6 arg7 harg7 arg8 harg8 hc0 x0 x1 x2 = k0_pay2 x1 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg3.read_unread, View.ld_unit_zero (S := S1x2048x64) hz3]

/-- and the cast copy of its value block in the second. -/
theorem sout_A_1 (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x1024x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x1024x64 .f32) (x1 : Vec F S1x2048x64 .f32) (x2 : Vec F S1x2048x64 .f32) :
    sout0_A_1 c i arg2 harg2 arg3 harg3 arg4 harg4 arg5 harg5 arg6 harg6 arg7 harg7 arg8 harg8 hc0 x0 x1 x2 = k0_pay3 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg4.read_unread, View.ld_unit_zero (S := S1x2048x64) hz3]

/-- A storing point: the context block, at the copies it has just stored. -/
theorem out_A_3 (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x1024x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x1024x64 .f32) (x1 : Vec F S1x2048x64 .f32) (x2 : Vec F S1x2048x64 .f32) :
    out0_A_3 c i arg2 harg2 arg3 harg3 arg4 harg4 arg5 harg5 arg6 harg6 arg7 harg7 arg8 harg8 hc0 x0 x1 x2 = ctxBlk x0 (k0_pay2 x1) (k0_pay3 x2) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readAt_eq_ld, harg2.read_unread, harg3.read_unread, harg4.read_unread,
    View.ld_unit_zero (S := S1x1024x64) hz3, View.ld_unit_zero (S := S1x2048x64) hz3]
  rw [readCov_whole_store arg7.view (k0_pay2 x1) rowsLo, readCov_whole_store arg7.view (k0_pay2 x1) rowsHi,
    readCov_whole_store arg8.view (k0_pay3 x2) rowsLo, readCov_whole_store arg8.view (k0_pay3 x2) rowsHi]
  rfl

/-- A storing point: the weights block, at the key copy it has just stored. -/
theorem out_A_4 (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x1024x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x1024x64 .f32) (x1 : Vec F S1x2048x64 .f32) (x2 : Vec F S1x2048x64 .f32) :
    out0_A_4 c i arg2 harg2 arg3 harg3 arg4 harg4 arg5 harg5 arg6 harg6 arg7 harg7 arg8 harg8 hc0 x0 x1 x2 = wBlk x0 (k0_pay2 x1) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  simp only [View.readAt_eq_ld, harg2.read_unread, harg3.read_unread,
    View.ld_unit_zero (S := S1x1024x64) hz3, View.ld_unit_zero (S := S1x2048x64) hz3]
  rw [readCov_whole_store arg7.view (k0_pay2 x1) rowsLo, readCov_whole_store arg7.view (k0_pay2 x1) rowsHi]
  rfl

end Cert.KPieces

end
-- ==== Proof.KernelPoints.lean ====
/-
  What every grid point leaves, in closed form.

  The grid has 64 · 2 points; point t is batch-head t / 2 and query half t mod 2. The query window and the two output
  windows move with both coordinates, the key and value windows with the batch-head only. A point with t even stores the
  cast copies of its own key and value blocks into the scratch buffers; the point after it (t odd) finds them there, and
  its own key and value blocks are the same blocks, since t - 1 and t have the same batch-head. So at EVERY point the
  outputs are the context and weights blocks computed from the point's own three input blocks.
-/
import proofs.«136513_j40166534152796_2_alg».proof.Proof.KernelPieces

noncomputable section

open Idealize.ShloMosaic Idealize.ShloMosaic.TcCoe Idealize.SL.Sem

namespace Cert.KPoints

open Cert.KernelIdeal Cert.KernelIdeal.Gen Cert.KPieces

variable {F : FTy → Type} [FloatOps F]
variable (m : (ℓ : Loc nD τ sig) → Buf (Elt F) ℓ)

/-- The five index maps at point t, decided once over the grid: (t / 2, t mod 2, 0) for the query and the two outputs,
    (t / 2, 0, 0) for the key and the value. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = t.val % 2 ∧ win0_3.index t (2 : Fin 3) = 0)
    ∧ (win0_4.index t (0 : Fin 3) = t.val / 2 ∧ win0_4.index t (1 : Fin 3) = t.val % 2 ∧ win0_4.index t (2 : Fin 3) = 0) :=
  (by decide +kernel : ∀ t : Fin grid0.N, _)

/-- The outputs and scratch contents computed from point t's own blocks. -/
def leaves (c : Dev nD) (t : Fin cfg0.N) :
    Vec F S1x1024x64 .f32 × Vec F S1x1024x2048 .f32 × Vec F S2048x64 .bf16 × Vec F S2048x64 .bf16 :=
  (ctxBlk (iblk m c 0 t) (k0_pay2 (iblk m c 1 t)) (k0_pay3 (iblk m c 2 t)),
    wBlk (iblk m c 0 t) (k0_pay2 (iblk m c 1 t)), k0_pay2 (iblk m c 1 t), k0_pay3 (iblk m c 2 t))

/-- Its context component. -/
theorem leaves_ctx (c : Dev nD) (t : Fin cfg0.N) :
    (leaves m c t).1 = ctxBlk (iblk m c 0 t) (k0_pay2 (iblk m c 1 t)) (k0_pay3 (iblk m c 2 t)) := by
  dsimp only [leaves]
/-- Its weights component. -/
theorem leaves_w (c : Dev nD) (t : Fin cfg0.N) :
    (leaves m c t).2.1 = wBlk (iblk m c 0 t) (k0_pay2 (iblk m c 1 t)) := by
  dsimp only [leaves]

/-- A storing point leaves them. -/
theorem outsAt_even (c : Dev nD) (t : Fin cfg0.N) (h0 : t.val % 2 = 0) : outsAt0 m c t.val t.isLt = leaves m c t := by
  rw [outsAt0_A m c t h0]
  exact congrArg₂ Prod.mk (out_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))
    (congrArg₂ Prod.mk (out_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))
      (congrArg₂ Prod.mk (sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))
        (sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t))))

/-- The key block does not move from an even point to the next. -/
theorem iblkK_prev (c : Dev nD) (t : Fin cfg0.N) (h0 : ¬t.val % 2 = 0) (h' : t.val - 1 < cfg0.N) :
    (iblk m c 1 ⟨t.val - 1, h'⟩ : Vec F S1x2048x64 .f32) = iblk m c 1 t := by
  obtain ⟨-, ⟨a0, a1, a2⟩, -⟩ := idx_facts t
  obtain ⟨-, ⟨b0, b1, b2⟩, -⟩ := idx_facts ⟨t.val - 1, h'⟩
  funext y
  show V m c main_v1 (((cfg0.win 1).blk ⟨t.val - 1, h'⟩).view.emb y) = V m c main_v1 (((cfg0.win 1).blk t).view.emb y)
  refine congrArg (V m c main_v1) (funext fun a => Fin.ext ?_)
  match a with
  | ⟨0, _⟩ => show win0_1.index ⟨t.val - 1, h'⟩ (0 : Fin 3) * 1 + 1 * (y 0).val = win0_1.index t (0 : Fin 3) * 1 + 1 * (y 0).val; rw [a0, b0]; dsimp only; omega
  | ⟨1, _⟩ => show win0_1.index ⟨t.val - 1, h'⟩ (1 : Fin 3) * 2048 + 1 * (y 1).val = win0_1.index t (1 : Fin 3) * 2048 + 1 * (y 1).val; rw [a1, b1]
  | ⟨2, _⟩ => show win0_1.index ⟨t.val - 1, h'⟩ (2 : Fin 3) * 64 + 1 * (y 2).val = win0_1.index t (2 : Fin 3) * 64 + 1 * (y 2).val; rw [a2, b2]

/-- Nor does the value block. -/
theorem iblkV_prev (c : Dev nD) (t : Fin cfg0.N) (h0 : ¬t.val % 2 = 0) (h' : t.val - 1 < cfg0.N) :
    (iblk m c 2 ⟨t.val - 1, h'⟩ : Vec F S1x2048x64 .f32) = iblk m c 2 t := by
  obtain ⟨-, -, ⟨a0, a1, a2⟩, -⟩ := idx_facts t
  obtain ⟨-, -, ⟨b0, b1, b2⟩, -⟩ := idx_facts ⟨t.val - 1, h'⟩
  funext y
  show V m c main_v2 (((cfg0.win 2).blk ⟨t.val - 1, h'⟩).view.emb y) = V m c main_v2 (((cfg0.win 2).blk t).view.emb y)
  refine congrArg (V m c main_v2) (funext fun a => Fin.ext ?_)
  match a with
  | ⟨0, _⟩ => show win0_2.index ⟨t.val - 1, h'⟩ (0 : Fin 3) * 1 + 1 * (y 0).val = win0_2.index t (0 : Fin 3) * 1 + 1 * (y 0).val; rw [a0, b0]; dsimp only; omega
  | ⟨1, _⟩ => show win0_2.index ⟨t.val - 1, h'⟩ (1 : Fin 3) * 2048 + 1 * (y 1).val = win0_2.index t (1 : Fin 3) * 2048 + 1 * (y 1).val; rw [a1, b1]
  | ⟨2, _⟩ => show win0_2.index ⟨t.val - 1, h'⟩ (2 : Fin 3) * 64 + 1 * (y 2).val = win0_2.index t (2 : Fin 3) * 64 + 1 * (y 2).val; rw [a2, b2]

/-- A point that does not store leaves the same terms: the scratch holds the copies the point before stored, and those are
    the copies of this point's own blocks. -/
theorem outsAt_odd (c : Dev nD) (t : Fin cfg0.N) (h0 : ¬t.val % 2 = 0) : outsAt0 m c t.val t.isLt = leaves m c t := by
  have h' : t.val - 1 < cfg0.N := Nat.lt_of_le_of_lt (Nat.sub_le _ _) t.isLt
  have hp : outsAt0 m c (t.val - 1) h' = leaves m c ⟨t.val - 1, h'⟩ :=
    outsAt_even m c ⟨t.val - 1, h'⟩ (by show (t.val - 1) % 2 = 0; omega)
  have e0 : (outsAt0 m c (t.val - 1) h').2.2.1 = k0_pay2 (iblk m c 1 t) :=
    (congrArg (fun p => p.2.2.1) hp).trans (congrArg k0_pay2 (iblkK_prev m c t h0 h'))
  have e1 : (outsAt0 m c (t.val - 1) h').2.2.2 = k0_pay3 (iblk m c 2 t) :=
    (congrArg (fun p => p.2.2.2) hp).trans (congrArg k0_pay3 (iblkV_prev m c t h0 h'))
  rw [outsAt0_B m c t h0, e0, e1]
  exact congrArg₂ Prod.mk (out_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (k0_pay2 (iblk m c 1 t)) (k0_pay3 (iblk m c 2 t)))
    (congrArg₂ Prod.mk (out_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (k0_pay2 (iblk m c 1 t)) (k0_pay3 (iblk m c 2 t))) rfl)

/-- Every point leaves the blocks computed from its own input blocks. -/
theorem outsAt_eq (c : Dev nD) (t : Fin cfg0.N) : outsAt0 m c t.val t.isLt = leaves m c t := by
  by_cases h0 : t.val % 2 = 0
  · exact outsAt_even m c t h0
  · exact outsAt_odd m c t h0

end Cert.KPoints

end
-- ==== Proof.LibRowDot.lean ====
/-
  A matrix product with BOTH operands contracted along their second axis, [M, K] × [N, K] → [M, N], read at an index
  over the extended reals.

  This is a product against a transposed right operand that is never transposed in memory: with the contraction on
  axis 1 of the left operand and axis 1 of the right operand and no batch axis, the entry (p, q) of the product is the
  sum over k of lhs (p, k) · rhs (q, k) — the inner product of row p of the left operand with row q of the right one.
  It holds for a matrix unit's product into a zero accumulator (matmul_zero_apply), into any accumulator
  (matmul_acc_apply), and for the host's dot_general (dotGeneral_apply), whatever precision or schedule key they
  carry. All three follow from re-indexing the sum over the one-axis contraction shape by its coordinate (contr_sum).
-/
import Idealize.ShloMosaic.PureOps.Ideal.Laws
import Idealize.ShloMosaic.Lib.ValueIdx

noncomputable section

open scoped BigOperators

namespace Cert.RowDot

open Idealize.ShloMosaic Idealize.ShloMosaic.ValueIdx

variable {M K N : Nat}

/-- The dimension numbers of the row-by-row product. -/
abbrev rowDims (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable (wf : DotDims.WF ⟨2, ![M, K]⟩ ⟨2, ![N, K]⟩ ⟨2, ![M, N]⟩ [1] [1] [0] [0] [] [])

/-- The left operand's row coordinate is the result's row, whatever the contraction index. -/
theorem lhs_row (j : (⟨2, ![M, N]⟩ : Shape).Idx) (r : (rowDims M K N wf).contr.Idx) :
    ((rowDims M K N wf).lhsIdx j r 0).val = (j 0).val := by
  unfold DotDims.lhsIdx
  rw [dif_neg (show ¬ (0 : Fin 2) ∈ (rowDims M K N wf).lhsBatch from List.not_mem_nil),
    dif_pos (show (0 : Fin 2) ∈ (rowDims M K N wf).lhsNonContracting from List.mem_singleton.mpr rfl)]
  rfl

/-- The right operand's ROW coordinate is the result's column, whatever the contraction index. -/
theorem rhs_row (j : (⟨2, ![M, N]⟩ : Shape).Idx) (r : (rowDims M K N wf).contr.Idx) :
    ((rowDims M K N wf).rhsIdx j r 0).val = (j 1).val := by
  unfold DotDims.rhsIdx
  rw [dif_neg (show ¬ (0 : Fin 2) ∈ (rowDims M K N wf).rhsBatch from List.not_mem_nil),
    dif_pos (show (0 : Fin 2) ∈ (rowDims M K N wf).rhsNonContracting from List.mem_singleton.mpr rfl)]
  rfl

/-- The sum over the contraction shape is the sum over k of lhs (p, k) · rhs (q, k). -/
theorem contr_sum (lhs : (⟨2, ![M, K]⟩ : Shape).Idx → EReal) (rhs : (⟨2, ![N, K]⟩ : Shape).Idx → EReal) (p : Fin M) (q : Fin N) :
    ∑ k : (rowDims M K N wf).contr.Idx, lhs ((rowDims M K N wf).lhsIdx (ix2 p q) k) * rhs ((rowDims M K N wf).rhsIdx (ix2 p q) k)
      = ∑ k : Fin K, lhs (ix2 p k) * rhs (ix2 q k) := by
  rw [← Equiv.sum_comp (contrEquiv1 (rowDims M K N wf) K rfl rfl).symm]
  refine Finset.sum_congr rfl fun k _ => ?_
  have hk := contrEquiv1_symm_val (rowDims M K N wf) K rfl rfl k
  have el : (rowDims M K N wf).lhsIdx (ix2 p q) ((contrEquiv1 (rowDims M K N wf) K rfl rfl).symm k) = ix2 p k :=
    funext fun a => Fin.ext (by
      match a with
      | ⟨0, _⟩ => exact lhs_row wf _ _
      | ⟨1, _⟩ => exact ((rowDims M K N wf).lhsIdx_val_of_single rfl _ _).trans hk)
  have er : (rowDims M K N wf).rhsIdx (ix2 p q) ((contrEquiv1 (rowDims M K N wf) K rfl rfl).symm k) = ix2 q k :=
    funext fun a => Fin.ext (by
      match a with
      | ⟨0, _⟩ => exact rhs_row wf _ _
      | ⟨1, _⟩ => exact ((rowDims M K N wf).rhsIdx_val_of_single rfl _ _).trans hk)
  rw [el, er]

/-- A MATRIX UNIT'S PRODUCT INTO ANY ACCUMULATOR, read at (p, q), for ANY dimension numbers of the row-by-row form. -/
theorem matmul_acc_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂)
    (acc : FVec Ideal ⟨2, ![M, N]⟩ .f32) (p : Fin M) (q : Fin N) :
    FloatOps.matmul d prec lhs rhs acc (ix2 p q) = acc (ix2 p q) + ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_apply]
  exact congrArg (acc (ix2 p q) + ·) (contr_sum wf lhs rhs p q)

/-- The same INTO A ZERO ACCUMULATOR: just the sum. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the row-by-row form. -/
theorem dotGeneral_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.RowDot

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.KernelBlock.lean ====
/-
  The blocks one grid point leaves, read at an index over the extended reals.

  Write x for the point's query block [1, 1024, 64], k and v for the contents of the two scratch buffers [2048, 64] (cast
  copies of the key block and of the value block), c for the scale constant and 0 for the zero constant. Row r of the scaled
  query block is x(r, ·) · c. The tile against key rows j is t(r, j) = max(Σ_d (x(r, d) · c) · k(j, d), 0). The weights block
  [1, 1024, 2048] holds t(r, j) at column j for every one of the 2048 key rows j: its left half was stored from the first
  1024 rows of k and its right half from the last 1024. The context block [1, 1024, 64] holds at (r, d) the zero start plus
  the sum over the first 1024 key rows j of t(r, j) · v(j, d), plus the same sum over the last 1024 key rows.
  A change of float format is the identity on the extended reals, so the casts disappear.
-/
import proofs.«136513_j40166534152796_2_alg».proof.Proof.KernelPieces
import proofs.«136513_j40166534152796_2_alg».proof.Proof.LibRowDot
import proofs.«136513_j40166534152796_2_alg».proof.Proof.LibPlainDot
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KBlock

open Cert.KernelIdeal Cert.KernelIdeal.Gen Cert.KPieces

/-- The scale constant the body multiplies the query block by, as an extended real. -/
abbrev c8 : EReal := Ideal.ofBits .f32 0x3E000000#32
/-- The zero constant, as an extended real. -/
abbrev z0 : EReal := Ideal.ofBits .f32 0x00000000#32

/-- Key row j of the first half, as a row of the whole buffer. -/
abbrev rowLo (j : Fin 1024) : Fin 2048 := ⟨j.val, by omega⟩
/-- Key row j of the second half, as a row of the whole buffer. -/
abbrev rowHi (j : Fin 1024) : Fin 2048 := ⟨1024 + j.val, by omega⟩

/-- The index (0, r, d) of a [1, n0, n1] block is (r, d) with a leading zero. -/
theorem cons3 {n0 n1 : Nat} (r : Fin n0) (d : Fin n1) :
    (Fin.cons (⟨0, Nat.one_pos⟩ : Fin 1) (ix2 r d) : (⟨3, ![1, n0, n1]⟩ : Shape).Idx) = ix3 (0 : Fin 1) r d := by
  funext a
  match a with
  | ⟨0, _⟩ => rfl
  | ⟨1, _⟩ => rfl
  | ⟨2, _⟩ => rfl

/-- Dropping the leading coordinate of (0, r, d) leaves (r, d). -/
theorem tail3 {n0 n1 : Nat} (r : Fin n0) (d : Fin n1) :
    (fun a : Fin 2 => (ix3 (0 : Fin 1) r d : (⟨3, ![1, n0, n1]⟩ : Shape).Idx) a.succ) = ix2 r d := by
  funext a
  match a with
  | ⟨0, _⟩ => rfl
  | ⟨1, _⟩ => rfl

/-- The scaled query block at (r, d). -/
theorem scaledQ_apply (x0 : Vec Ideal S1x1024x64 .f32) (r : Fin 1024) (d : Fin 64) :
    k0_pay4 (F := Ideal) x0 (ix2 r d) = x0 (ix3 0 r d) * c8 := by
  unfold k0_pay4
  show (shapeCast S1024x64 x0 shapeCasts_S1x1024x64_S1024x64 (ix2 r d)) * c8 = _
  refine congrArg (· * c8) ?_
  refine (shapeCast_dropUnit_apply ![1024, 64] x0 shapeCasts_S1x1024x64_S1024x64 (ix2 r d)).trans ?_
  exact congrArg x0 (cons3 r d)

/-- The cast copy of the key block at (j, d) is the block's entry. -/
theorem copyK_apply (x1 : Vec Ideal S1x2048x64 .f32) (j : Fin 2048) (d : Fin 64) :
    k0_pay2 (F := Ideal) x1 (ix2 j d) = x1 (ix3 0 j d) := by
  unfold k0_pay2
  refine (congrFun (shapeCast_self _ shapeCasts_S2048x64_S2048x64) (ix2 j d)).trans ?_
  show shapeCast S2048x64 x1 shapeCasts_S1x2048x64_S2048x64 (ix2 j d) = _
  refine (shapeCast_dropUnit_apply ![2048, 64] x1 shapeCasts_S1x2048x64_S2048x64 (ix2 j d)).trans ?_
  exact congrArg x1 (cons3 j d)

/-- The cast copy of the value block at (j, d) is the block's entry. -/
theorem copyV_apply (x2 : Vec Ideal S1x2048x64 .f32) (j : Fin 2048) (d : Fin 64) :
    k0_pay3 (F := Ideal) x2 (ix2 j d) = x2 (ix3 0 j d) := by
  unfold k0_pay3
  refine (congrFun (shapeCast_self _ shapeCasts_S2048x64_S2048x64) (ix2 j d)).trans ?_
  show shapeCast S2048x64 x2 shapeCasts_S1x2048x64_S2048x64 (ix2 j d) = _
  refine (shapeCast_dropUnit_apply ![2048, 64] x2 shapeCasts_S1x2048x64_S2048x64 (ix2 j d)).trans ?_
  exact congrArg x2 (cons3 j d)

/-- The first half of a scratch buffer at (j, d). -/
theorem lo_apply (X : Vec Ideal S2048x64 .bf16) (j : Fin 1024) (d : Fin 64) :
    lo X (ix2 j d) = X (ix2 (rowLo j) d) := by
  show X (rowsLo.idx (ix2 j d)) = _
  refine congrArg X (funext fun a => Fin.ext ?_)
  match a with
  | ⟨0, _⟩ => show 0 + 1 * j.val = j.val; omega
  | ⟨1, _⟩ => show 0 + 1 * d.val = d.val; omega

/-- The second half at (j, d). -/
theorem hi_apply (X : Vec Ideal S2048x64 .bf16) (j : Fin 1024) (d : Fin 64) :
    hi X (ix2 j d) = X (ix2 (rowHi j) d) := by
  show X (rowsHi.idx (ix2 j d)) = _
  refine congrArg X (funext fun a => Fin.ext ?_)
  match a with
  | ⟨0, _⟩ => show 1024 + 1 * j.val = 1024 + j.val; omega
  | ⟨1, _⟩ => show 0 + 1 * d.val = d.val; omega

/-- The tile of query row r against the key rows of a [1024, 64] half. -/
def tile (x0 : Vec Ideal S1x1024x64 .f32) (kh : Vec Ideal S1024x64 .bf16) (r j : Fin 1024) : EReal :=
  max (∑ d : Fin 64, (x0 (ix3 0 r d) * c8) * kh (ix2 j d)) z0

/-- The first tile at (r, j). -/
theorem tileA_apply (x0 : Vec Ideal S1x1024x64 .f32) (v9 : Vec Ideal S1024x64 .bf16) (r j : Fin 1024) :
    k0_pay5 (F := Ideal) x0 v9 (ix2 r j) = tile x0 v9 r j := by
  unfold k0_pay5 tile
  show max (FloatOps.matmul dot_S1024x64_S1024x64_S1024x1024_1_1_0_0_n_n none (k0_pay4 (F := Ideal) x0) v9 (constant (F := Ideal) S1024x1024 .f32 0x00000000#32) (ix2 r j)) z0 = _
  refine congrArg (max · z0) ?_
  refine (Cert.RowDot.matmul_zero_apply dot_S1024x64_S1024x64_S1024x1024_1_1_0_0_n_n rfl rfl rfl rfl rfl rfl none (k0_pay4 (F := Ideal) x0) v9 r j).trans ?_
  exact Finset.sum_congr rfl fun d _ => congrArg (· * v9 (ix2 j d)) (scaledQ_apply x0 r d)

/-- The second tile at (r, j): the same function of its key half. -/
theorem tileB_apply (x0 : Vec Ideal S1x1024x64 .f32) (v20 : Vec Ideal S1024x64 .bf16) (r j : Fin 1024) :
    k0_pay8 (F := Ideal) x0 v20 (ix2 r j) = tile x0 v20 r j := by
  unfold k0_pay8 tile
  show max (FloatOps.matmul dot_S1024x64_S1024x64_S1024x1024_1_1_0_0_n_n none (k0_pay4 (F := Ideal) x0) v20 (constant (F := Ideal) S1024x1024 .f32 0x00000000#32) (ix2 r j)) z0 = _
  refine congrArg (max · z0) ?_
  refine (Cert.RowDot.matmul_zero_apply dot_S1024x64_S1024x64_S1024x1024_1_1_0_0_n_n rfl rfl rfl rfl rfl rfl none (k0_pay4 (F := Ideal) x0) v20 r j).trans ?_
  exact Finset.sum_congr rfl fun d _ => congrArg (· * v20 (ix2 j d)) (scaledQ_apply x0 r d)

/-- The weight of query row r against row j of the whole key copy. -/
def wt (x0 : Vec Ideal S1x1024x64 .f32) (xs0 : Vec Ideal S2048x64 .bf16) (r : Fin 1024) (j : Fin 2048) : EReal :=
  max (∑ d : Fin 64, (x0 (ix3 0 r d) * c8) * xs0 (ix2 j d)) z0

theorem tile_lo (x0 : Vec Ideal S1x1024x64 .f32) (xs0 : Vec Ideal S2048x64 .bf16) (r j : Fin 1024) :
    tile x0 (lo xs0) r j = wt x0 xs0 r (rowLo j) := by
  unfold tile wt
  exact congrArg (max · z0) (Finset.sum_congr rfl fun d _ => congrArg ((x0 (ix3 0 r d) * c8) * ·) (lo_apply xs0 j d))

theorem tile_hi (x0 : Vec Ideal S1x1024x64 .f32) (xs0 : Vec Ideal S2048x64 .bf16) (r j : Fin 1024) :
    tile x0 (hi xs0) r j = wt x0 xs0 r (rowHi j) := by
  unfold tile wt
  exact congrArg (max · z0) (Finset.sum_congr rfl fun d _ => congrArg ((x0 (ix3 0 r d) * c8) * ·) (hi_apply xs0 j d))

/-- The context block at (0, r, d): the zero start, plus the first tile against the first value rows, plus the second tile
    against the last value rows. -/
theorem ctxBlk_apply (x0 : Vec Ideal S1x1024x64 .f32) (xs0 xs1 : Vec Ideal S2048x64 .bf16) (r : Fin 1024) (d : Fin 64) :
    ctxBlk (F := Ideal) x0 xs0 xs1 (ix3 0 r d)
      = (z0 + ∑ j : Fin 1024, wt x0 xs0 r (rowLo j) * xs1 (ix2 (rowLo j) d))
        + ∑ j : Fin 1024, wt x0 xs0 r (rowHi j) * xs1 (ix2 (rowHi j) d) := by
  unfold ctxBlk k0_pay1
  refine (shapeCast_addUnit_apply ![1024, 64] _ shapeCasts_S1024x64_S1x1024x64 (ix3 0 r d)).trans ?_
  rw [tail3 r d]
  show k0_pay7 (F := Ideal) x0 (lo xs0) (lo xs1) (ix2 r d)
      + FloatOps.matmul dot_S1024x1024_S1024x64_S1024x64_1_0_0_1_n_n none (k0_pay10 (F := Ideal) x0 (hi xs0)) (hi xs1) (constant (F := Ideal) S1024x64 .f32 0x00000000#32) (ix2 r d) = _
  have e2 : FloatOps.matmul (φ₁ := .bf16) (φ₂ := .bf16) dot_S1024x1024_S1024x64_S1024x64_1_0_0_1_n_n none (k0_pay10 (F := Ideal) x0 (hi xs0)) (hi xs1) (constant (F := Ideal) S1024x64 .f32 0x00000000#32) (ix2 r d)
      = ∑ j : Fin 1024, wt x0 xs0 r (rowHi j) * xs1 (ix2 (rowHi j) d) := by
    refine (Cert.PlainDot.matmul_zero_apply dot_S1024x1024_S1024x64_S1024x64_1_0_0_1_n_n rfl rfl rfl rfl rfl rfl none (k0_pay10 (F := Ideal) x0 (hi xs0)) (hi xs1) r d).trans ?_
    refine Finset.sum_congr rfl fun j _ => ?_
    show k0_pay8 (F := Ideal) x0 (hi xs0) (ix2 r j) * hi xs1 (ix2 j d) = _
    rw [tileB_apply, tile_hi, hi_apply]
  have e1 : k0_pay7 (F := Ideal) x0 (lo xs0) (lo xs1) (ix2 r d)
      = z0 + ∑ j : Fin 1024, wt x0 xs0 r (rowLo j) * xs1 (ix2 (rowLo j) d) := by
    unfold k0_pay7
    show z0 + FloatOps.matmul dot_S1024x1024_S1024x64_S1024x64_1_0_0_1_n_n none (truncf (F := Ideal) .bf16 (k0_pay5 (F := Ideal) x0 (lo xs0)) bitsLt_bf16_f32) (lo xs1) (constant (F := Ideal) S1024x64 .f32 0x00000000#32) (ix2 r d) = _
    refine congrArg (z0 + ·) ?_
    refine (Cert.PlainDot.matmul_zero_apply dot_S1024x1024_S1024x64_S1024x64_1_0_0_1_n_n rfl rfl rfl rfl rfl rfl none (truncf (F := Ideal) .bf16 (k0_pay5 (F := Ideal) x0 (lo xs0)) bitsLt_bf16_f32) (lo xs1) r d).trans ?_
    refine Finset.sum_congr rfl fun j _ => ?_
    show k0_pay5 (F := Ideal) x0 (lo xs0) (ix2 r j) * lo xs1 (ix2 j d) = _
    rw [tileA_apply, tile_lo, lo_apply]
  rw [e1, e2]

/-- The first stored tile, as a [1, 1024, 1024] piece, at (0, r, j). -/
theorem pieceLo_apply (x0 : Vec Ideal S1x1024x64 .f32) (xs0 : Vec Ideal S2048x64 .bf16) (r j : Fin 1024) :
    k0_pay6 (F := Ideal) x0 (lo xs0) (ix3 0 r j) = wt x0 xs0 r (rowLo j) := by
  unfold k0_pay6
  refine (shapeCast_addUnit_apply ![1024, 1024] _ shapeCasts_S1024x1024_S1x1024x1024 (ix3 0 r j)).trans ?_
  rw [tail3 r j, tileA_apply, tile_lo]

/-- The second stored tile at (0, r, j). -/
theorem pieceHi_apply (x0 : Vec Ideal S1x1024x64 .f32) (xs0 : Vec Ideal S2048x64 .bf16) (r j : Fin 1024) :
    k0_pay9 (F := Ideal) x0 (hi xs0) (ix3 0 r j) = wt x0 xs0 r (rowHi j) := by
  unfold k0_pay9
  refine (shapeCast_addUnit_apply ![1024, 1024] _ shapeCasts_S1024x1024_S1x1024x1024 (ix3 0 r j)).trans ?_
  rw [tail3 r j, tileB_apply, tile_hi]

/-- An index of a [1, 1024, 1024] piece is (0, a, b). -/
theorem piece_idx (x : (⟨3, ![1, 1024, 1024]⟩ : Shape).Idx) : ∃ (a b : Fin 1024), x = ix3 (0 : Fin 1) a b :=
  ⟨x 1, x 2, funext fun i => by
    match i with
    | ⟨0, h⟩ => exact Fin.ext (by have h1 : (x ⟨0, h⟩).val < 1 := (x ⟨0, h⟩).isLt; show (x ⟨0, h⟩).val = 0; omega)
    | ⟨1, _⟩ => rfl
    | ⟨2, _⟩ => rfl⟩

/-- The weights block at (0, r, j), for every key row j: the two tiles side by side are one function of the column. -/
theorem wBlk_apply (x0 : Vec Ideal S1x1024x64 .f32) (xs0 : Vec Ideal S2048x64 .bf16) (r : Fin 1024) (j : Fin 2048) :
    wBlk (F := Ideal) x0 xs0 (ix3 0 r j) = wt x0 xs0 r j := by
  unfold wBlk
  refine View.canon_apply_of_pieces (Val := Elt Ideal) (S := S1x1024x2048) (e := .f32) (fun y : S1x1024x2048.Idx => wt x0 xs0 (y 1) (y 2)) _ ?_ (ix3 0 r j) ?_
  · intro p hp x
    rcases List.mem_cons.mp hp with rfl | hp
    · obtain ⟨a, b, rfl⟩ := piece_idx x
      refine (pieceHi_apply x0 xs0 a b).trans ?_
      refine congrArg₂ (wt x0 xs0) (Fin.ext ?_) (Fin.ext ?_)
      · show a.val = 0 + 1 * a.val; omega
      · show 1024 + b.val = 1024 + 1 * b.val; omega
    · obtain rfl := List.mem_singleton.mp hp
      obtain ⟨a, b, rfl⟩ := piece_idx x
      refine (pieceLo_apply x0 xs0 a b).trans ?_
      refine congrArg₂ (wt x0 xs0) (Fin.ext ?_) (Fin.ext ?_)
      · show a.val = 0 + 1 * a.val; omega
      · show b.val = 0 + 1 * b.val; omega
  · by_cases h : j.val < 1024
    · refine ⟨⟨colsLo, k0_pay6 (F := Ideal) x0 (lo xs0)⟩, List.mem_cons_of_mem _ (List.mem_singleton_self _), ?_⟩
      refine (Rect.mem_set_unit (s := S1x1024x2048) (off := ![0, 0, 0]) (size := S1x1024x1024.size) (inb := inb_S1x1024x2048_S1x1024x1024_0_0_0) (i := ix3 0 r j)).mpr fun a => ?_
      match a with
      | ⟨0, _⟩ => exact ⟨Nat.zero_le _, by show (0 : ℕ) < 0 + 1; omega⟩
      | ⟨1, _⟩ => exact ⟨Nat.zero_le _, by show r.val < 0 + 1024; omega⟩
      | ⟨2, _⟩ => exact ⟨Nat.zero_le _, by show j.val < 0 + 1024; omega⟩
    · refine ⟨⟨colsHi, k0_pay9 (F := Ideal) x0 (hi xs0)⟩, List.mem_cons_self, ?_⟩
      refine (Rect.mem_set_unit (s := S1x1024x2048) (off := ![0, 0, 1024]) (size := S1x1024x1024.size) (inb := inb_S1x1024x2048_S1x1024x1024_0_0_1024) (i := ix3 0 r j)).mpr fun a => ?_
      match a with
      | ⟨0, _⟩ => exact ⟨Nat.zero_le _, by show (0 : ℕ) < 0 + 1; omega⟩
      | ⟨1, _⟩ => exact ⟨Nat.zero_le _, by show r.val < 0 + 1024; omega⟩
      | ⟨2, _⟩ => exact ⟨by show 1024 ≤ j.val; omega, by show j.val < 1024 + 1024; have := j.isLt; omega⟩

end Cert.KBlock

end
-- ==== Proof.KernelArrays.lean ====
/-
  The two output arrays of the region after the run, as functions of the three arrays the region reads.

  The region's arrays have the batch and head axes merged: q, k, v are [64, 2048, 64], the weights array is [64, 2048, 2048]
  and the context array [64, 2048, 64]. Point t of the grid handles batch-head t / 2 and the query rows
  (t mod 2) · 1024 … (t mod 2) · 1024 + 1023: its query block is those rows of q, its key and value blocks are the whole
  batch-head's rows of k and v, and it writes back the same rows of both outputs. Reading the blocks where the outputs'
  rectangles say, every point writes the restriction to its rows of ONE function of q, k, v: the weight at (bh, r, j) is
  max(Σ_d (q(bh, r, d) · c) · k(bh, j, d), 0) and the context at (bh, r, d) is the zero start plus the sum over the first 1024
  key rows j of weight(bh, r, j) · v(bh, j, d), plus the sum over the last 1024. The 128 blocks of each output tile its array
  (row r of batch-head bh belongs to point 2 · bh + r / 1024), so the arrays end at these functions everywhere.
-/
import proofs.«136513_j40166534152796_2_alg».proof.Proof.KernelPoints
import proofs.«136513_j40166534152796_2_alg».proof.Proof.KernelBlock
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KArrays

open Cert.KernelIdeal Cert.KernelIdeal.Gen Cert.KPieces Cert.KBlock Cert.KPoints

variable (m : (ℓ : Loc nD τ sig) → Buf (Elt Ideal) ℓ)

theorem lt128 (t : Fin cfg0.N) : t.val < 128 := lt_of_lt_of_eq t.isLt N_0

/-- The batch-head of point t. -/
abbrev bhOf (t : Fin cfg0.N) : Fin 64 := ⟨t.val / 2, by have := lt128 t; omega⟩
/-- Row r of point t's query block, as a row of the whole array. -/
abbrev rowOf (t : Fin cfg0.N) (r : Fin 1024) : Fin 2048 := ⟨t.val % 2 * 1024 + r.val, by omega⟩

/-- Point t's query block. -/
abbrev qB (c : Dev nD) (t : Fin cfg0.N) : Vec Ideal S1x1024x64 .f32 := iblk m c 0 t
/-- Point t's key block. -/
abbrev kB (c : Dev nD) (t : Fin cfg0.N) : Vec Ideal S1x2048x64 .f32 := iblk m c 1 t
/-- Point t's value block. -/
abbrev vB (c : Dev nD) (t : Fin cfg0.N) : Vec Ideal S1x2048x64 .f32 := iblk m c 2 t

/-- The weights array as a function of q and k. -/
def W3 (q3 k3 : S64x2048x64.Idx → EReal) : S64x2048x2048.Idx → EReal :=
  fun i => max (∑ d : Fin 64, (q3 (ix3 (i 0) (i 1) d) * c8) * k3 (ix3 (i 0) (i 2) d)) z0

/-- The context array as a function of q, k and v: the zero start plus the two half sums over the key rows. -/
def C3 (q3 k3 v3 : S64x2048x64.Idx → EReal) : S64x2048x64.Idx → EReal :=
  fun i => (z0 + ∑ j : Fin 1024, W3 q3 k3 (ix3 (i 0) (i 1) (rowLo j)) * v3 (ix3 (i 0) (rowLo j) (i 2)))
    + ∑ j : Fin 1024, W3 q3 k3 (ix3 (i 0) (i 1) (rowHi j)) * v3 (ix3 (i 0) (rowHi j) (i 2))

/-- Point t's query block at (0, r, d) is q at (batch-head, row, d). -/
theorem iblkQ_apply (c : Dev nD) (t : Fin cfg0.N) (r : Fin 1024) (d : Fin 64) :
    qB m c t (ix3 0 r d) = V m c main_v0 (ix3 (bhOf t) (rowOf t r) d) := by
  obtain ⟨⟨a0, a1, a2⟩, -⟩ := idx_facts t
  show V m c main_v0 (((cfg0.win 0).blk t).view.emb (ix3 0 r d)) = _
  refine congrArg (V m c main_v0) (funext fun a => Fin.ext ?_)
  match a with
  | ⟨0, _⟩ => show win0_0.index t (0 : Fin 3) * 1 + 1 * 0 = t.val / 2; rw [a0]; omega
  | ⟨1, _⟩ => show win0_0.index t (1 : Fin 3) * 1024 + 1 * r.val = t.val % 2 * 1024 + r.val; rw [a1]; omega
  | ⟨2, _⟩ => show win0_0.index t (2 : Fin 3) * 64 + 1 * d.val = d.val; rw [a2]; omega

/-- Point t's key block at (0, j, d) is k at (batch-head, j, d). -/
theorem iblkK_apply (c : Dev nD) (t : Fin cfg0.N) (j : Fin 2048) (d : Fin 64) :
    kB m c t (ix3 0 j d) = V m c main_v1 (ix3 (bhOf t) j d) := by
  obtain ⟨-, ⟨a0, a1, a2⟩, -⟩ := idx_facts t
  show V m c main_v1 (((cfg0.win 1).blk t).view.emb (ix3 0 j d)) = _
  refine congrArg (V m c main_v1) (funext fun a => Fin.ext ?_)
  match a with
  | ⟨0, _⟩ => show win0_1.index t (0 : Fin 3) * 1 + 1 * 0 = t.val / 2; rw [a0]; omega
  | ⟨1, _⟩ => show win0_1.index t (1 : Fin 3) * 2048 + 1 * j.val = j.val; rw [a1]; omega
  | ⟨2, _⟩ => show win0_1.index t (2 : Fin 3) * 64 + 1 * d.val = d.val; rw [a2]; omega

/-- Point t's value block at (0, j, d) is v at (batch-head, j, d). -/
theorem iblkV_apply (c : Dev nD) (t : Fin cfg0.N) (j : Fin 2048) (d : Fin 64) :
    vB m c t (ix3 0 j d) = V m c main_v2 (ix3 (bhOf t) j d) := by
  obtain ⟨-, -, ⟨a0, a1, a2⟩, -⟩ := idx_facts t
  show V m c main_v2 (((cfg0.win 2).blk t).view.emb (ix3 0 j d)) = _
  refine congrArg (V m c main_v2) (funext fun a => Fin.ext ?_)
  match a with
  | ⟨0, _⟩ => show win0_2.index t (0 : Fin 3) * 1 + 1 * 0 = t.val / 2; rw [a0]; omega
  | ⟨1, _⟩ => show win0_2.index t (1 : Fin 3) * 2048 + 1 * j.val = j.val; rw [a1]; omega
  | ⟨2, _⟩ => show win0_2.index t (2 : Fin 3) * 64 + 1 * d.val = d.val; rw [a2]; omega

/-- The weight point t computes for its row r against key row j is the weights array's entry. -/
theorem wt_point (c : Dev nD) (t : Fin cfg0.N) (r : Fin 1024) (j : Fin 2048) :
    wt (qB m c t) (k0_pay2 (F := Ideal) (kB m c t)) r j
      = W3 (V m c main_v0) (V m c main_v1) (ix3 (bhOf t) (rowOf t r) j) := by
  unfold wt W3
  refine congrArg (max · z0) (Finset.sum_congr rfl fun d _ => ?_)
  exact congrArg₂ (· * ·) (congrArg (· * c8) (iblkQ_apply m c t r d))
    ((copyK_apply (kB m c t) j d).trans (iblkK_apply m c t j d))

/-- An index of a [1, 1024, n] block is (0, r, j). -/
theorem blk_idx {n : Nat} (y : (⟨3, ![1, 1024, n]⟩ : Shape).Idx) : ∃ (r : Fin 1024) (j : Fin n), y = ix3 (0 : Fin 1) r j :=
  ⟨y 1, y 2, funext fun i => by
    match i with
    | ⟨0, h⟩ => exact Fin.ext (by have h1 : (y ⟨0, h⟩).val < 1 := (y ⟨0, h⟩).isLt; show (y ⟨0, h⟩).val = 0; omega)
    | ⟨1, _⟩ => rfl
    | ⟨2, _⟩ => rfl⟩

/-- Reading a [1, 1024, n] staging block through the window's cut at (0, r, j) reads the block there: nothing is cut off. -/
theorem cut4_apply (t : Fin cfg0.N) (X : Vec Ideal S1x1024x2048 .f32) (r : Fin 1024) (j : Fin 2048) :
    (cfg0.win 4).cut (grid0.coords t) X (ix3 0 r j) = X (ix3 0 r j) :=
  congrArg X (funext fun a => Fin.ext (by match a with | ⟨0, _⟩ => rfl | ⟨1, _⟩ => rfl | ⟨2, _⟩ => rfl))

theorem cut3_apply (t : Fin cfg0.N) (X : Vec Ideal S1x1024x64 .f32) (r : Fin 1024) (d : Fin 64) :
    (cfg0.win 3).cut (grid0.coords t) X (ix3 0 r d) = X (ix3 0 r d) :=
  congrArg X (funext fun a => Fin.ext (by match a with | ⟨0, _⟩ => rfl | ⟨1, _⟩ => rfl | ⟨2, _⟩ => rfl))

/-- Block t of the weights array at (0, r, j) is the array at (batch-head, row, j). -/
theorem read4_apply (t : Fin cfg0.N) (G : S64x2048x2048.Idx → EReal) (r : Fin 1024) (j : Fin 2048) :
    ((cfg0.win 4).blk t).view.read (Elt Ideal) G (ix3 0 r j) = G (ix3 (bhOf t) (rowOf t r) j) := by
  obtain ⟨-, -, -, -, ⟨a0, a1, a2⟩⟩ := idx_facts t
  show G (((cfg0.win 4).blk t).view.emb (ix3 0 r j)) = _
  refine congrArg G (funext fun a => Fin.ext ?_)
  match a with
  | ⟨0, _⟩ => show win0_4.index t (0 : Fin 3) * 1 + 1 * 0 = t.val / 2; rw [a0]; omega
  | ⟨1, _⟩ => show win0_4.index t (1 : Fin 3) * 1024 + 1 * r.val = t.val % 2 * 1024 + r.val; rw [a1]; omega
  | ⟨2, _⟩ => show win0_4.index t (2 : Fin 3) * 2048 + 1 * j.val = j.val; rw [a2]; omega

/-- Block t of the context array at (0, r, d) is the array at (batch-head, row, d). -/
theorem read3_apply (t : Fin cfg0.N) (G : S64x2048x64.Idx → EReal) (r : Fin 1024) (d : Fin 64) :
    ((cfg0.win 3).blk t).view.read (Elt Ideal) G (ix3 0 r d) = G (ix3 (bhOf t) (rowOf t r) d) := by
  obtain ⟨-, -, -, ⟨a0, a1, a2⟩, -⟩ := idx_facts t
  show G (((cfg0.win 3).blk t).view.emb (ix3 0 r d)) = _
  refine congrArg G (funext fun a => Fin.ext ?_)
  match a with
  | ⟨0, _⟩ => show win0_3.index t (0 : Fin 3) * 1 + 1 * 0 = t.val / 2; rw [a0]; omega
  | ⟨1, _⟩ => show win0_3.index t (1 : Fin 3) * 1024 + 1 * r.val = t.val % 2 * 1024 + r.val; rw [a1]; omega
  | ⟨2, _⟩ => show win0_3.index t (2 : Fin 3) * 64 + 1 * d.val = d.val; rw [a2]; omega

/-! ## The weights array -/

/-- What point t writes back into the weights array is block t of the function. -/
theorem flushed4_eq (c : Dev nD) (t : Fin cfg0.N) :
    (dats m 0 c).flushed 4 t = ((cfg0.win 4).blk t).view.read (Elt Ideal) (W3 (V m c main_v0) (V m c main_v1)) := by
  show (cfg0.win 4).cut (grid0.coords t) ((dats m 0 c).after 4 t) = _
  rw [after0_4, outsAt_eq m c t, leaves_w]
  funext y
  obtain ⟨r, j, rfl⟩ := blk_idx (n := 2048) y
  refine (cut4_apply t _ r j).trans ?_
  refine Eq.trans ?_ (read4_apply t _ r j).symm
  exact (wBlk_apply (qB m c t) (k0_pay2 (kB m c t)) r j).trans (wt_point m c t r j)

/-- An index of the weights array is in point t's block iff each coordinate is in the block's range on its axis. -/
theorem mem_blk4 (t : Fin cfg0.N) (i : S64x2048x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v3_1).slice (win0_4.rect t)).set ↔ _
  rw [View.set_slice_whole, Rect.mem_set_unit]
  exact Iff.rfl

/-- Every index of the weights array is in some point's block. -/
theorem cover4 (i : S64x2048x2048.Idx) : ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 2048 := (i 2).isLt
  have hN : cfg0.N = 128 := N_0
  have ht : 2 * (i 0).val + (i 1).val / 1024 < cfg0.N := by rw [hN]; omega
  obtain ⟨-, -, -, -, ⟨a0, a1, a2⟩⟩ := idx_facts ⟨2 * (i 0).val + (i 1).val / 1024, ht⟩
  dsimp only at a0 a1 a2
  refine ⟨⟨2 * (i 0).val + (i 1).val / 1024, ht⟩, flush0_4 _, (mem_blk4 _ i).mpr fun a => ?_⟩
  match a with
  | ⟨0, _⟩ => show win0_4.index ⟨2 * (i 0).val + (i 1).val / 1024, ht⟩ (0 : Fin 3) * 1 ≤ (i 0).val ∧ (i 0).val < win0_4.index ⟨2 * (i 0).val + (i 1).val / 1024, ht⟩ (0 : Fin 3) * 1 + 1; rw [a0]; omega
  | ⟨1, _⟩ => show win0_4.index ⟨2 * (i 0).val + (i 1).val / 1024, ht⟩ (1 : Fin 3) * 1024 ≤ (i 1).val ∧ (i 1).val < win0_4.index ⟨2 * (i 0).val + (i 1).val / 1024, ht⟩ (1 : Fin 3) * 1024 + 1024; rw [a1]; omega
  | ⟨2, _⟩ => show win0_4.index ⟨2 * (i 0).val + (i 1).val / 1024, ht⟩ (2 : Fin 3) * 2048 ≤ (i 2).val ∧ (i 2).val < win0_4.index ⟨2 * (i 0).val + (i 1).val / 1024, ht⟩ (2 : Fin 3) * 2048 + 2048; rw [a2]; omega

/-- The weights array after the run. -/
theorem final4 (c : Dev nD) : (dats m 0 c).arrAt 4 cfg0.N = W3 (V m c main_v0) (V m c main_v1) :=
  (dats m 0 c).arrAt_eq_of_cover 4 (W3 (V m c main_v0) (V m c main_v1)) (fun t _ => flushed4_eq m c t) cover4

/-! ## The context array -/

/-- What point t writes back into the context array is block t of the function. -/
theorem flushed3_eq (c : Dev nD) (t : Fin cfg0.N) :
    (dats m 0 c).flushed 3 t = ((cfg0.win 3).blk t).view.read (Elt Ideal) (C3 (V m c main_v0) (V m c main_v1) (V m c main_v2)) := by
  show (cfg0.win 3).cut (grid0.coords t) ((dats m 0 c).after 3 t) = _
  rw [after0_3, outsAt_eq m c t, leaves_ctx]
  funext y
  obtain ⟨r, d, rfl⟩ := blk_idx (n := 64) y
  refine (cut3_apply t _ r d).trans ?_
  refine Eq.trans ?_ (read3_apply t _ r d).symm
  refine (ctxBlk_apply (qB m c t) (k0_pay2 (kB m c t)) (k0_pay3 (vB m c t)) r d).trans ?_
  unfold C3
  refine congrArg₂ (· + ·) (congrArg (z0 + ·) (Finset.sum_congr rfl fun j _ => ?_)) (Finset.sum_congr rfl fun j _ => ?_)
  · exact congrArg₂ (· * ·) (wt_point m c t r (rowLo j)) ((copyV_apply (vB m c t) (rowLo j) d).trans (iblkV_apply m c t (rowLo j) d))
  · exact congrArg₂ (· * ·) (wt_point m c t r (rowHi j)) ((copyV_apply (vB m c t) (rowHi j) d).trans (iblkV_apply m c t (rowHi j) d))

/-- An index of the context array is in point t's block iff each coordinate is in the block's range on its axis. -/
theorem mem_blk3 (t : Fin cfg0.N) (i : S64x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3_0).slice (win0_3.rect t)).set ↔ _
  rw [View.set_slice_whole, Rect.mem_set_unit]
  exact Iff.rfl

/-- Every index of the context array is in some point's block. -/
theorem cover3 (i : S64x2048x64.Idx) : ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 64 := (i 2).isLt
  have hN : cfg0.N = 128 := N_0
  have ht : 2 * (i 0).val + (i 1).val / 1024 < cfg0.N := by rw [hN]; omega
  obtain ⟨-, -, -, ⟨a0, a1, a2⟩, -⟩ := idx_facts ⟨2 * (i 0).val + (i 1).val / 1024, ht⟩
  dsimp only at a0 a1 a2
  refine ⟨⟨2 * (i 0).val + (i 1).val / 1024, ht⟩, flush0_3 _, (mem_blk3 _ i).mpr fun a => ?_⟩
  match a with
  | ⟨0, _⟩ => show win0_3.index ⟨2 * (i 0).val + (i 1).val / 1024, ht⟩ (0 : Fin 3) * 1 ≤ (i 0).val ∧ (i 0).val < win0_3.index ⟨2 * (i 0).val + (i 1).val / 1024, ht⟩ (0 : Fin 3) * 1 + 1; rw [a0]; omega
  | ⟨1, _⟩ => show win0_3.index ⟨2 * (i 0).val + (i 1).val / 1024, ht⟩ (1 : Fin 3) * 1024 ≤ (i 1).val ∧ (i 1).val < win0_3.index ⟨2 * (i 0).val + (i 1).val / 1024, ht⟩ (1 : Fin 3) * 1024 + 1024; rw [a1]; omega
  | ⟨2, _⟩ => show win0_3.index ⟨2 * (i 0).val + (i 1).val / 1024, ht⟩ (2 : Fin 3) * 64 ≤ (i 2).val ∧ (i 2).val < win0_3.index ⟨2 * (i 0).val + (i 1).val / 1024, ht⟩ (2 : Fin 3) * 64 + 64; rw [a2]; omega

/-- The context array after the run. -/
theorem final3 (c : Dev nD) : (dats m 0 c).arrAt 3 cfg0.N = C3 (V m c main_v0) (V m c main_v1) (V m c main_v2) :=
  (dats m 0 c).arrAt_eq_of_cover 3 (C3 (V m c main_v0) (V m c main_v1) (V m c main_v2)) (fun t _ => flushed3_eq m c t) cover3

end Cert.KArrays

end
-- ==== Proof.HostSide.lean ====
/-
  The host side of the idealized kernel program: the three reshapes that merge the two leading axes of each input
  before the one region, and the two reshapes that split the merged axis again after it.

  Before the region, each of the three inputs f32[4,16,2048,64] is reshaped to f32[64,2048,64]; the region's first
  three windows read those arrays. After the region, its first output f32[64,2048,64] is reshaped to
  f32[4,16,2048,64] and its second output f32[64,2048,2048] to f32[4,16,2048,2048]. A reshape keeps row-major
  positions, so an index (b, h) of the two leading axes sits at 16 * b + h on the merged axis.
-/
import proofs.«136513_j40166534152796_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KHost

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The arrays the region finds

The three reshapes before the region each write one fresh buffer from one launch buffer; no other line before
the region touches it. -/

/-- The region's first array is the first input with its two leading axes merged. -/
theorem V_v0 (c : Dev nD) :
    V m c main_v0 = shapeCast S64x2048x64 (m ((c : Thread nD τ).loc main_arg0)) shapeCasts_S4x16x2048x64_S64x2048x64 := by
  show StableHlo.after hostOps0 (fun b => m (c, b)) (Proc.devRef .tc main_v0) = _
  after_results
  rfl

/-- The region's second array is the second input with its two leading axes merged. -/
theorem V_v1 (c : Dev nD) :
    V m c main_v1 = shapeCast S64x2048x64 (m ((c : Thread nD τ).loc main_arg1)) shapeCasts_S4x16x2048x64_S64x2048x64 := by
  show StableHlo.after hostOps0 (fun b => m (c, b)) (Proc.devRef .tc main_v1) = _
  after_results
  rfl

/-- The region's third array is the third input with its two leading axes merged. -/
theorem V_v2 (c : Dev nD) :
    V m c main_v2 = shapeCast S64x2048x64 (m ((c : Thread nD τ).loc main_arg2)) shapeCasts_S4x16x2048x64_S64x2048x64 := by
  show StableHlo.after hostOps0 (fun b => m (c, b)) (Proc.devRef .tc main_v2) = _
  after_results
  rfl

/-! ## The results after the region

The two reshapes after the region each read one of the region's output arrays (windows 3 and 4), which the
region leaves at the pipeline's final contents, and write one result buffer. -/

/-- The two result buffers are unscoped buffers that are no window's array. -/
theorem mem_v4 : main_v4 ∈ Pipeline.restRefs sig cfg0.spec := Pipeline.mem_restRefs_of main_v4 (by decide) (by decide)
theorem mem_v5 : main_v5 ∈ Pipeline.restRefs sig cfg0.spec := Pipeline.mem_restRefs_of main_v5 (by decide) (by decide)

/-- The first result is the region's first output (window 3) with the merged axis split in two. -/
theorem tail_v4 (c : Dev nD) :
    Pipeline.afterTail₀ cfgs (dats m) 0 (V0 m) [hostOps1] c main_v4
      = shapeCast S4x16x2048x64 ((dats m 0 c).arrAt 3 cfg0.N) shapeCasts_S64x2048x64_S4x16x2048x64 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3_0)
      = (dats m 0 c).arrAt 3 cfg0.N := Pipeline.withArrays_arr spec0 launch0.win.arr_inj c _ _ 3
  rw [e]
  rfl

/-- The second result is the region's second output (window 4) with the merged axis split in two. -/
theorem tail_v5 (c : Dev nD) :
    Pipeline.afterTail₀ cfgs (dats m) 0 (V0 m) [hostOps1] c main_v5
      = shapeCast S4x16x2048x2048 ((dats m 0 c).arrAt 4 cfg0.N) shapeCasts_S64x2048x2048_S4x16x2048x2048 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v3_1)
      = (dats m 0 c).arrAt 4 cfg0.N := Pipeline.withArrays_arr spec0 launch0.win.arr_inj c _ _ 4
  rw [e]
  rfl

/-! ## The reshapes read at an index

A reshape keeps each element's row-major position. Merging axes of extents 4 and 16 sends (b, h) to 16 * b + h;
splitting an axis of extent 64 sends n to (n / 16, n % 16). The trailing axes are untouched. -/

/-- Merging the two leading axes, read at a merged index: the operand at the quotient and remainder by 16. -/
theorem split_apply {α : Type} (x : S4x16x2048x64.Idx → α) (bh : Fin 64) (r : Fin 2048) (d : Fin 64) :
    shapeCast S64x2048x64 x shapeCasts_S4x16x2048x64_S64x2048x64 (ix3 bh r d)
      = x (ix4 ⟨bh.val / 16, by omega⟩ ⟨bh.val % 16, by omega⟩ r d) := by
  refine shapeCast_apply x _ _ _ ?_
  rw [Shape.rowMajor_val_four, Shape.rowMajor_val_three]
  show ((bh.val / 16 * 16 + bh.val % 16) * 2048 + r.val) * 64 + d.val = (bh.val * 2048 + r.val) * 64 + d.val
  omega

/-- Splitting the leading axis of a [64,2048,64] array, read at (b, h, q, d): the operand at 16 * b + h. -/
theorem merge_ctx_apply {α : Type} (x : S64x2048x64.Idx → α) (b : Fin 4) (h : Fin 16) (q : Fin 2048) (d : Fin 64) :
    shapeCast S4x16x2048x64 x shapeCasts_S64x2048x64_S4x16x2048x64 (ix4 b h q d)
      = x (ix3 ⟨16 * b.val + h.val, by omega⟩ q d) := by
  refine shapeCast_apply x _ _ _ ?_
  rw [Shape.rowMajor_val_four, Shape.rowMajor_val_three]
  show ((16 * b.val + h.val) * 2048 + q.val) * 64 + d.val = ((b.val * 16 + h.val) * 2048 + q.val) * 64 + d.val
  omega

/-- Splitting the leading axis of a [64,2048,2048] array, read at (b, h, q, k): the operand at 16 * b + h. -/
theorem merge_w_apply {α : Type} (x : S64x2048x2048.Idx → α) (b : Fin 4) (h : Fin 16) (q k : Fin 2048) :
    shapeCast S4x16x2048x2048 x shapeCasts_S64x2048x2048_S4x16x2048x2048 (ix4 b h q k)
      = x (ix3 ⟨16 * b.val + h.val, by omega⟩ q k) := by
  refine shapeCast_apply x _ _ _ ?_
  rw [Shape.rowMajor_val_four, Shape.rowMajor_val_three]
  show ((16 * b.val + h.val) * 2048 + q.val) * 2048 + k.val = ((b.val * 16 + h.val) * 2048 + q.val) * 2048 + k.val
  omega

end Cert.KHost

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.Spec.lean ====
/-
  The two results as functions of the argument arrays, index by index, over the extended reals.

  The arguments are three arrays Q, K, V indexed by (batch b, head h, row, feature d), of extents 4, 16, 2048, 64.
  For a batch b, a head h, a query row q and a key row k the SCORE is the inner product over the 64 features of
  query row q with key row k, times one eighth (the reciprocal of the square root of 64); the WEIGHT is its positive
  part, max(score, 0). The second result holds the weights; the first result, the CONTEXT, at (b, h, q, d) is the sum
  over the 2048 key rows k of weight(b, h, q, k) times V(b, h, k, d).

  Two laws connect other arrangements of the same numbers to these:
  * the scale may be folded into the query row before the inner product, provided the entries are real numbers
    (multiplication distributes over a finite sum of reals, not over sums that meet both infinities);
  * the sum over the 2048 key rows may be taken as two halves of 1024 rows added to a zero start, which uses only
    commutativity and associativity of addition and so holds with infinities as well.
-/
import Idealize.ShloMosaic.PureOps.Ideal
import Idealize.ShloMosaic.Lib.ValueIdx
import proofs.«136513_j40166534152796_2_alg».proof.Proof.LibRealSums
import proofs.«136513_j40166534152796_2_alg».proof.Proof.LibTileSum

noncomputable section

open scoped BigOperators

namespace Cert.Spec

open Idealize.ShloMosaic Idealize.ShloMosaic.ValueIdx Cert.RealSums

/-- The shape of each argument and of the context: batch, head, row, feature. -/
abbrev SQ : Shape := ⟨4, ![4, 16, 2048, 64]⟩
/-- The shape of the weights: batch, head, query row, key row. -/
abbrev SW : Shape := ⟨4, ![4, 16, 2048, 2048]⟩

/-- One eighth: the reciprocal of the square root of the feature extent 64. -/
def eighth : EReal := ((1 / 8 : ℝ) : EReal)

theorem isReal_eighth : IsReal eighth := ⟨1 / 8, rfl⟩

/-- The scaled inner product of query row q with key row k. -/
def score (Q K : SQ.Idx → EReal) (b : Fin 4) (h : Fin 16) (q k : Fin 2048) : EReal :=
  (∑ d : Fin 64, Q (ix4 b h q d) * K (ix4 b h k d)) * eighth

/-- The attention weight: the positive part of the score. -/
def weight (Q K : SQ.Idx → EReal) (b : Fin 4) (h : Fin 16) (q k : Fin 2048) : EReal :=
  max (score Q K b h q k) 0

/-- The array of weights. -/
def weights (Q K : SQ.Idx → EReal) : SW.Idx → EReal :=
  fun i => weight Q K (i 0) (i 1) (i 2) (i 3)

/-- The context: each query row's weighted sum of the value rows. -/
def context (Q K V : SQ.Idx → EReal) : SQ.Idx → EReal :=
  fun i => ∑ k : Fin 2048, weight Q K (i 0) (i 1) (i 2) k * V (ix4 (i 0) (i 1) k (i 3))

/-- The score with the scale folded into the query row first. -/
def scoreFolded (Q K : SQ.Idx → EReal) (b : Fin 4) (h : Fin 16) (q k : Fin 2048) : EReal :=
  ∑ d : Fin 64, (Q (ix4 b h q d) * eighth) * K (ix4 b h k d)

/-- Folding the scale into the query row does not change the score when the entries are real. -/
theorem scoreFolded_eq (Q K : SQ.Idx → EReal) (hQ : ∀ i, IsReal (Q i)) (hK : ∀ i, IsReal (K i))
    (b : Fin 4) (h : Fin 16) (q k : Fin 2048) : scoreFolded Q K b h q k = score Q K b h q k := by
  unfold scoreFolded score
  rw [sum_mul_of_isReal Finset.univ (fun d : Fin 64 => Q (ix4 b h q d) * K (ix4 b h k d)) eighth
    (fun d _ => (hQ _).mul (hK _)) isReal_eighth]
  refine Finset.sum_congr rfl fun d _ => ?_
  obtain ⟨x, hx⟩ := hQ (ix4 b h q d)
  obtain ⟨y, hy⟩ := hK (ix4 b h k d)
  show Q (ix4 b h q d) * eighth * K (ix4 b h k d) = Q (ix4 b h q d) * K (ix4 b h k d) * eighth
  rw [hx, hy, eighth, ← EReal.coe_mul, ← EReal.coe_mul, ← EReal.coe_mul, ← EReal.coe_mul]
  exact congrArg _ (by ring)

/-- A sum over 2048 positions taken as a zero start plus the first 1024 positions, plus the last 1024. -/
theorem sum_two_halves (f : ℕ → EReal) :
    (0 + ∑ j : Fin 1024, f j.val) + ∑ j : Fin 1024, f (1024 + j.val) = ∑ k : Fin 2048, f k.val := by
  have h := Cert.TileSum.sum_tiles 2 1024 f
  rw [Finset.sum_range_succ, Finset.sum_range_one] at h
  rw [zero_add]
  have e0 : ∑ j : Fin 1024, f (1024 * 0 + j.val) = ∑ j : Fin 1024, f j.val :=
    Finset.sum_congr rfl fun j _ => congrArg f (by omega)
  have e1 : ∑ j : Fin 1024, f (1024 * 1 + j.val) = ∑ j : Fin 1024, f (1024 + j.val) :=
    Finset.sum_congr rfl fun j _ => congrArg f (by omega)
  rw [e0, e1] at h
  exact h

end Cert.Spec

end
-- ==== Proof.Bridge.lean ====
/-
  From the region's arrays to the specification.

  The region works on arrays whose batch axis b (extent 4) and head axis h (extent 16) are merged into one axis of extent
  64 at position 16 · b + h. Through this re-indexing, and for arguments whose entries are real numbers:
  * the region's weights function is the specification's weight: the scale constant is one eighth and the zero constant is
    zero, and folding the scale into the query row before the inner product does not change a sum of reals;
  * the region's context function, a zero start plus two sums over 1024 key rows each, is the specification's sum over all
    2048 key rows.
  Splitting the merged axis again gives the two results.
-/
import proofs.«136513_j40166534152796_2_alg».proof.Proof.KernelArrays
import proofs.«136513_j40166534152796_2_alg».proof.Proof.HostSide
import proofs.«136513_j40166534152796_2_alg».proof.Proof.Spec

noncomputable section

open scoped BigOperators
open Idealize.ShloMosaic Idealize.ShloMosaic.TcCoe Idealize.SL.Sem Idealize.ShloMosaic.ValueIdx

namespace Cert.Bridge

open Cert.KernelIdeal Cert.KernelIdeal.Gen Cert.KBlock Cert.KArrays Cert.KHost Cert.Spec Cert.RealSums

/-- The scale constant's pattern denotes one eighth: exponent field 124, fraction 0. -/
theorem c8_eq : c8 = eighth := by
  show Ideal.ofBits .f32 0x3E000000#32 = ((1 / 8 : ℝ) : EReal)
  simp [Ideal.ofBits, Ideal.ieee, -EReal.coe_mul]; norm_num

/-- The zero pattern denotes zero. -/
theorem z0_eq : z0 = 0 := Ideal.ofBits_zero_f32

/-- The position of (b, h) on the merged axis. -/
abbrev bhm (b : Fin 4) (h : Fin 16) : Fin 64 := ⟨16 * b.val + h.val, by omega⟩

/-- An argument with its two leading axes merged. -/
abbrev merged (X : S4x16x2048x64.Idx → EReal) : S64x2048x64.Idx → EReal :=
  shapeCast S64x2048x64 X shapeCasts_S4x16x2048x64_S64x2048x64

/-- The merged array at (16 · b + h, r, d) is the argument at (b, h, r, d). -/
theorem merged_apply (X : S4x16x2048x64.Idx → EReal) (b : Fin 4) (h : Fin 16) (r : Fin 2048) (d : Fin 64) :
    merged X (ix3 (bhm b h) r d) = X (ix4 b h r d) := by
  have hb := b.isLt
  have hh := h.isLt
  refine (split_apply X (bhm b h) r d).trans ?_
  exact congrArg X (congrArg₂ (fun (x : Fin 4) (y : Fin 16) => ix4 x y r d)
    (Fin.ext (by show (16 * b.val + h.val) / 16 = b.val; omega))
    (Fin.ext (by show (16 * b.val + h.val) % 16 = h.val; omega)))

/-- The region's weights function at the merged index is the specification's weight. -/
theorem W3_spec (Q K : SQ.Idx → EReal) (hQ : ∀ i, IsReal (Q i)) (hK : ∀ i, IsReal (K i))
    (b : Fin 4) (h : Fin 16) (q k : Fin 2048) :
    W3 (merged Q) (merged K) (ix3 (bhm b h) q k) = weight Q K b h q k := by
  unfold W3 weight
  show max (∑ d : Fin 64, (merged Q (ix3 (bhm b h) q d) * c8) * merged K (ix3 (bhm b h) k d)) z0 = max (score Q K b h q k) 0
  rw [z0_eq, ← scoreFolded_eq Q K hQ hK b h q k]
  unfold scoreFolded
  refine congrArg (max · 0) (Finset.sum_congr rfl fun d _ => ?_)
  rw [merged_apply, merged_apply, c8_eq]

/-- The region's context function at the merged index is the specification's context. -/
theorem C3_spec (Q K V : SQ.Idx → EReal) (hQ : ∀ i, IsReal (Q i)) (hK : ∀ i, IsReal (K i))
    (b : Fin 4) (h : Fin 16) (q : Fin 2048) (d : Fin 64) :
    C3 (merged Q) (merged K) (merged V) (ix3 (bhm b h) q d) = context Q K V (ix4 b h q d) := by
  unfold C3 context
  show (z0 + ∑ j : Fin 1024, W3 (merged Q) (merged K) (ix3 (bhm b h) q (rowLo j)) * merged V (ix3 (bhm b h) (rowLo j) d))
      + ∑ j : Fin 1024, W3 (merged Q) (merged K) (ix3 (bhm b h) q (rowHi j)) * merged V (ix3 (bhm b h) (rowHi j) d)
    = ∑ k : Fin 2048, weight Q K b h q k * V (ix4 b h k d)
  have hf : ∀ k : Fin 2048, (fun n : ℕ => if hn : n < 2048 then weight Q K b h q ⟨n, hn⟩ * V (ix4 b h ⟨n, hn⟩ d) else 0) k.val
      = weight Q K b h q k * V (ix4 b h k d) := fun k => dif_pos k.isLt
  rw [z0_eq, ← Finset.sum_congr rfl (fun k _ => hf k)]
  refine Eq.trans ?_ (sum_two_halves (fun n : ℕ => if hn : n < 2048 then weight Q K b h q ⟨n, hn⟩ * V (ix4 b h ⟨n, hn⟩ d) else 0))
  refine congrArg₂ (· + ·) (congrArg (0 + ·) (Finset.sum_congr rfl fun j _ => ?_)) (Finset.sum_congr rfl fun j _ => ?_)
  · rw [W3_spec Q K hQ hK b h q (rowLo j), merged_apply V b h (rowLo j) d]
    exact (hf (rowLo j)).symm
  · rw [W3_spec Q K hQ hK b h q (rowHi j), merged_apply V b h (rowHi j) d]
    exact (hf (rowHi j)).symm

/-- The second result: the region's weights array with its leading axis split is the specification's weights. -/
theorem result_weights (Q K : SQ.Idx → EReal) (hQ : ∀ i, IsReal (Q i)) (hK : ∀ i, IsReal (K i)) :
    shapeCast S4x16x2048x2048 (W3 (merged Q) (merged K)) shapeCasts_S64x2048x2048_S4x16x2048x2048 = weights Q K := by
  funext i
  obtain ⟨b, h, q, k, rfl⟩ : ∃ (b : Fin 4) (h : Fin 16) (q k : Fin 2048), i = ix4 b h q k := ⟨i 0, i 1, i 2, i 3, eq_ix4 i⟩
  refine (merge_w_apply _ b h q k).trans ?_
  exact W3_spec Q K hQ hK b h q k

/-- The first result: the region's context array with its leading axis split is the specification's context. -/
theorem result_context (Q K V : SQ.Idx → EReal) (hQ : ∀ i, IsReal (Q i)) (hK : ∀ i, IsReal (K i)) :
    shapeCast S4x16x2048x64 (C3 (merged Q) (merged K) (merged V)) shapeCasts_S64x2048x64_S4x16x2048x64 = context Q K V := by
  funext i
  obtain ⟨b, h, q, d, rfl⟩ : ∃ (b : Fin 4) (h : Fin 16) (q : Fin 2048) (d : Fin 64), i = ix4 b h q d := ⟨i 0, i 1, i 2, i 3, eq_ix4 i⟩
  refine (merge_ctx_apply _ b h q d).trans ?_
  exact C3_spec Q K V hQ hK b h q d

end Cert.Bridge

end
-- ==== Proof.KernelRun.lean ====
/-
  The idealized kernel's run, read at the specification.

  Every weakly fair execution of the idealized kernel program terminates. Its two result buffers are what the lines after
  the region write: the region's context array and weights array with the merged leading axis split into batch and head
  again. The region's arrays end at the region's context and weights functions of the three arrays the region reads, which
  are the three arguments with their leading axes merged. For arguments with real entries these are the specification's
  context and weights. The argument buffers end unchanged.
-/
import proofs.«136513_j40166534152796_2_alg».proof.Proof.Bridge

noncomputable section

open Idealize.ShloMosaic Idealize.ShloMosaic.TcCoe Idealize.SL.Sem

namespace Cert.KRun

open Cert.KernelIdeal Cert.KernelIdeal.Gen Cert.KArrays Cert.KHost Cert.Bridge Cert.RealSums

variable (m : (ℓ : Loc nD τ sig) → Buf (Elt Ideal) ℓ) (ρ : Dev nD → PrngReg)

/-- The first result buffer after the run: the specification's context of the arguments. -/
theorem result4 (c : Dev nD) (hQ : ∀ i, IsReal (m ((c.tc : Thread nD τ).loc main_arg0) i))
    (hK : ∀ i, IsReal (m ((c.tc : Thread nD τ).loc main_arg1) i)) :
    Pipeline.afterTail₀ cfgs (dats m) 0 (V0 m) [hostOps1] c main_v4
      = Cert.Spec.context (m ((c.tc : Thread nD τ).loc main_arg0)) (m ((c.tc : Thread nD τ).loc main_arg1)) (m ((c.tc : Thread nD τ).loc main_arg2)) := by
  rw [tail_v4 m c, final3 m c, V_v0 m c, V_v1 m c, V_v2 m c]
  exact result_context _ _ _ hQ hK

/-- The second result buffer after the run: the specification's weights of the arguments. -/
theorem result5 (c : Dev nD) (hQ : ∀ i, IsReal (m ((c.tc : Thread nD τ).loc main_arg0) i))
    (hK : ∀ i, IsReal (m ((c.tc : Thread nD τ).loc main_arg1) i)) :
    Pipeline.afterTail₀ cfgs (dats m) 0 (V0 m) [hostOps1] c main_v5
      = Cert.Spec.weights (m ((c.tc : Thread nD τ).loc main_arg0)) (m ((c.tc : Thread nD τ).loc main_arg1)) := by
  rw [tail_v5 m c, final4 m c, V_v0 m c, V_v1 m c]
  exact result_weights _ _ hQ hK

/-- The run: both results at the specification, the arguments unchanged. -/
theorem run (hQ : ∀ (c : Dev nD) i, IsReal (m ((c.tc : Thread nD τ).loc main_arg0) i))
    (hK : ∀ (c : Dev nD) i, IsReal (m ((c.tc : Thread nD τ).loc main_arg1) i)) :
    θ_run defs (onTc (τ := τ) (main (F := Ideal))) ⟨m, fun _ => 0, ρ⟩ (fun r => ∀ c : Dev nD,
      r.2.mem ((c.tc : Thread nD τ).loc main_v4) = Cert.Spec.context (m ((c.tc : Thread nD τ).loc main_arg0)) (m ((c.tc : Thread nD τ).loc main_arg1)) (m ((c.tc : Thread nD τ).loc main_arg2))
      ∧ r.2.mem ((c.tc : Thread nD τ).loc main_v5) = Cert.Spec.weights (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_v4 mem_v4).trans (result4 m c (hQ c) (hK c)),
      ((h c).2 main_v5 mem_v5).trans (result5 m c (hQ c) (hK c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KRun

end
-- ==== Proof.RefIsSpec.lean ====
/-
  The reference program computes the specification's two arrays, for every pair (triple) of extended-real arrays.

  The reference divides each inner product of a query row with a key row by the square root of 64 and keeps the
  positive part; the specification multiplies by one eighth. The square root of 64 is the real number 8, which is not
  zero, and dividing an extended real by a nonzero real is multiplying by its reciprocal at the infinities as well;
  so the two agree on every extended real, with no finiteness assumption. The context is then the same sum over the
  key rows of weight times value.
-/
import proofs.«136513_j40166534152796_2_alg».proof.Proof.Gen.ReferenceIdeal.Read
import proofs.«136513_j40166534152796_2_alg».proof.Proof.Spec

noncomputable section

open scoped BigOperators

namespace Cert.RefIsSpec

open Idealize.ShloMosaic Idealize.ShloMosaic.ValueIdx Cert.ReferenceIdeal.Read Cert.Spec

/-- The pattern 0x42800000 denotes the real number 64: exponent field 133, fraction 0, so 2^23 · 2^(133 - 127 - 23). -/
theorem ofBits_sixty_four : Ideal.ofBits .f32 0x42800000#32 = ((64 : ℝ) : EReal) := by
  simp [Ideal.ofBits, Ideal.ieee, -EReal.coe_mul]; norm_num

/-- The square root of 64 is 8. -/
theorem sqrt_sixty_four : Ideal.sqrt ((64 : ℝ) : EReal) = ((8 : ℝ) : EReal) := by
  rw [Ideal.sqrt_coe, if_neg (by norm_num)]
  have h : Real.sqrt 64 = 8 := by
    rw [show (64 : ℝ) = 8 ^ 2 by norm_num]
    exact Real.sqrt_sq (by norm_num)
  rw [h]

/-- The divisor the reference broadcasts: the square root of the constant 64, which is 8. -/
theorem divisor_eq (j : (⟨0, ![]⟩ : Shape).Idx) : val_main_v1 (F := Ideal) j = ((8 : ℝ) : EReal) := by
  rw [val_main_v1_apply, val_main_cst_apply, Ideal.hostUnary_sqrt_def, Ideal.ofBits_def, ofBits_sixty_four,
    sqrt_sixty_four]

/-- The left operand's index of the first contraction is (b, h, q, d). -/
theorem lidx_v0 (i : SW.Idx) (d : Fin 64) : lidx_main_v0 i d = ix4 (i 0) (i 1) (i 2) d :=
  funext fun a => Fin.ext (by match a with | ⟨0, _⟩ => rfl | ⟨1, _⟩ => rfl | ⟨2, _⟩ => rfl | ⟨3, _⟩ => rfl)

/-- The right operand's index of the first contraction is (b, h, k, d). -/
theorem ridx_v0 (i : SW.Idx) (d : Fin 64) : ridx_main_v0 i d = ix4 (i 0) (i 1) (i 3) d :=
  funext fun a => Fin.ext (by match a with | ⟨0, _⟩ => rfl | ⟨1, _⟩ => rfl | ⟨2, _⟩ => rfl | ⟨3, _⟩ => rfl)

/-- The reference's weight at an index is the specification's weight of its four coordinates. -/
theorem ref_weights_apply (Q K : SQ.Idx → EReal) (i : SW.Idx) :
    val_main_v4 (F := Ideal) Q K i = weight Q K (i 0) (i 1) (i 2) (i 3) := by
  rw [val_main_v4_apply, val_main_v3_apply, val_main_v0_apply, val_main_v2_apply, divisor_eq,
    val_main_call0_v0_apply, val_main_call0_cst_apply, Ideal.maximumf_def, Ideal.hostDivf_def, Ideal.ofBits_def,
    Ideal.ofBits_zero_f32, Ideal.div_coe (by norm_num : (8 : ℝ) ≠ 0)]
  unfold weight score eighth
  congr 2
  exact Finset.sum_congr rfl fun d _ =>
    congrArg₂ (· * ·) (congrArg Q (lidx_v0 i d)) (congrArg K (ridx_v0 i d))

/-- The reference's second result is the array of weights. -/
theorem ref_weights (Q K : SQ.Idx → EReal) : val_main_v4 (F := Ideal) Q K = weights Q K :=
  funext fun i => ref_weights_apply Q K i

/-- The left operand's index of the second contraction is (b, h, q, k). -/
theorem lidx_v5 (i : SQ.Idx) (k : Fin 2048) : lidx_main_v5 i k = (ix4 (i 0) (i 1) (i 2) k : SW.Idx) :=
  funext fun a => Fin.ext (by match a with | ⟨0, _⟩ => rfl | ⟨1, _⟩ => rfl | ⟨2, _⟩ => rfl | ⟨3, _⟩ => rfl)

/-- The right operand's index of the second contraction is (b, h, k, d). -/
theorem ridx_v5 (i : SQ.Idx) (k : Fin 2048) : ridx_main_v5 i k = (ix4 (i 0) (i 1) k (i 3) : SQ.Idx) :=
  funext fun a => Fin.ext (by match a with | ⟨0, _⟩ => rfl | ⟨1, _⟩ => rfl | ⟨2, _⟩ => rfl | ⟨3, _⟩ => rfl)

/-- The reference's first result is the context. -/
theorem ref_context (Q K V : SQ.Idx → EReal) : val_main_v5 (F := Ideal) Q K V = context Q K V := by
  funext i
  rw [val_main_v5_apply]
  unfold context
  refine Finset.sum_congr rfl fun k _ => ?_
  exact congrArg₂ (· * ·)
    ((congrArg (val_main_v4 (F := Ideal) Q K) (lidx_v5 i k)).trans (ref_weights_apply Q K _))
    (congrArg V (ridx_v5 i k))

end Cert.RefIsSpec

end
-- ==== Proof.Finite.lean ====
/-
  The precondition says every entry of the three argument arrays is a real number.

  The precondition is the conjunction, over the three arrays, of "every entry's absolute value is below plus
  infinity". Over the extended reals the absolute value of x is max(x, -x); it is plus infinity exactly when x is
  one of the two infinities, so an entry whose absolute value is below plus infinity is the image of a real number.
  The conjunction over all entries is a reduction by "and" into a single word, which is 1 only if every entry's
  comparison word is 1.
-/
import proofs.«136513_j40166534152796_2_alg».proof.Defs
import proofs.«136513_j40166534152796_2_alg».proof.Proof.LibRealSums
import Idealize.ShloMosaic.Lib.ReduceAll
import Idealize.ShloMosaic.Lib.IdealHost
import Idealize.ShloMosaic.Lib.ValueIdx

noncomputable section

namespace Cert.Finite

open Idealize.ShloMosaic Idealize.SL.Sem Cert.RealSums

/-- The pattern 0x7F800000 (exponent field all ones, fraction zero, sign clear) denotes plus infinity. -/
theorem ofBits_inf : Ideal.ofBits .f32 0x7F800000#32 = (⊤ : EReal) := by
  simp [Ideal.ofBits, Ideal.ieee]

/-- An extended real whose absolute value max(x, -x) compares below plus infinity is a real number. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  rw [Ideal.ofBits_def, ofBits_inf] at h
  change BitVec.ofBool (decide (max x (-x) < (⊤ : EReal))) = 1#1 at h
  induction x using EReal.rec with
  | bot => simp at h
  | coe r => exact ⟨r, rfl⟩
  | top => simp at h

/-- The scalar shape has one index. -/
instance : Subsingleton Cert.Pre_finite_inputs.S_.Idx := ⟨fun a b => funext fun d => d.elim0⟩

/-- One array: if the "and" over all entries of the comparison words is 1, every entry is real. -/
theorem isReal_of_all [Cert.Pre_finite_inputs.Facts] (x : FVec Ideal Cert.Pre_finite_inputs.S4x16x2048x64 .f32)
    (init : IVec Cert.Pre_finite_inputs.S_ 1)
    (e : Host.reduce IntOp.andi
        (cmpf .olt (Host.absf x)
          (broadcastInDim Cert.Pre_finite_inputs.S4x16x2048x64 ![] Cert.Pre_finite_inputs.Facts.bcast_S_S4x16x2048x64
            (constant Cert.Pre_finite_inputs.S_ .f32 0x7F800000#32)))
        init Cert.Pre_finite_inputs.Facts.reducesTo_S4x16x2048x64_S_d0_1_2_3 Cert.Pre_finite_inputs.Facts.h_S_
        ValueIdx.ix0 = 1#1) (i : Cert.Pre_finite_inputs.S4x16x2048x64.Idx) : IsReal (x i) := by
  have hi := Host.reduce_andi_all _ _ _ _ _ e i
  refine isReal_of_abs_lt_inf (x i) ?_
  have hb : broadcastInDim Cert.Pre_finite_inputs.S4x16x2048x64 ![] Cert.Pre_finite_inputs.Facts.bcast_S_S4x16x2048x64
      (constant (F := Ideal) Cert.Pre_finite_inputs.S_ .f32 0x7F800000#32) i
        = FloatOps.ofBits (F := Ideal) .f32 0x7F800000#32 :=
    ValueIdx.broadcastInDim_scalar_apply _ _ i
  rw [← hb]
  exact hi

/-- The precondition gives, on every device, that every entry of each of the three arguments is real. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i)) := by
  have e := congrFun (h c) ValueIdx.ix0
  dsimp only [Cert.Pre_finite_inputs.fn] at e
  change IntOp.andi (IntOp.andi _ _) _ = 1#1 at e
  rw [IntOp.andi_eq_one, IntOp.andi_eq_one] at e
  obtain ⟨⟨e0, e1⟩, e2⟩ := e
  exact ⟨fun i => isReal_of_all _ _ e0 i, fun i => isReal_of_all _ _ e1 i, fun i => isReal_of_all _ _ e2 i⟩

end Cert.Finite

end
-- ==== Proof.lean ====
/-
  Attention with the positive part in place of the softmax, for 4 batches, 16 heads, 2048 rows and 64 features.

  The reference computes, for every batch and head, the scores Q Kᵀ divided by the square root of 64, their positive parts
  (the weights, the second result) and the product of the weights with V (the context, the first result). The kernel merges
  batch and head into one axis of 64, and at each of 64 · 2 grid points takes 1024 query rows of one batch-head: it scales the
  query rows by one eighth first, multiplies them against the first and the last 1024 key rows, keeps the positive parts as
  the two halves of a block of weights, and accumulates the two halves' products with the value rows into a block of the
  context, starting from zero; casts to a narrower float format on the way are the identity on the extended reals.

  Over the extended reals the two programs agree when the arguments are finite, which the precondition states:
  * the square root of 64 is 8 and dividing by 8 is multiplying by one eighth;
  * one eighth times a finite sum of real products is the sum with each query entry scaled first (distributivity holds on
    the reals, not across infinities: this is where finiteness is used);
  * a sum over 2048 key rows is a zero start plus the sum over the first 1024 rows plus the sum over the last 1024
    (commutativity and associativity only);
  * merging two axes before the region and splitting them after it re-indexes (b, h) as 16 · b + h and back.
  No operation of the kernel was rewritten for its idealization, which is the kernel's own text read over the extended
  reals, so there is nothing to preserve.
  The three frames are the generated frame runs; the reference has no region and its frame is its run with the results
  dropped.
-/
import proofs.«136513_j40166534152796_2_alg».proof.Defs
import proofs.«136513_j40166534152796_2_alg».proof.Proof.Gen.Kernel
import proofs.«136513_j40166534152796_2_alg».proof.Proof.Gen.Kernel.Skeleton
import proofs.«136513_j40166534152796_2_alg».proof.Proof.Gen.Kernel.Launch
import proofs.«136513_j40166534152796_2_alg».proof.Proof.Gen.Kernel.Points
import proofs.«136513_j40166534152796_2_alg».proof.Proof.Gen.Kernel.Frame
import proofs.«136513_j40166534152796_2_alg».proof.Proof.Gen.KernelIdeal
import proofs.«136513_j40166534152796_2_alg».proof.Proof.Gen.KernelIdeal.Skeleton
import proofs.«136513_j40166534152796_2_alg».proof.Proof.Gen.KernelIdeal.Launch
import proofs.«136513_j40166534152796_2_alg».proof.Proof.Gen.KernelIdeal.Points
import proofs.«136513_j40166534152796_2_alg».proof.Proof.Gen.KernelIdeal.Frame
import proofs.«136513_j40166534152796_2_alg».proof.Proof.Gen.ReferenceIdeal
import proofs.«136513_j40166534152796_2_alg».proof.Proof.Gen.ReferenceIdeal.Run
import proofs.«136513_j40166534152796_2_alg».proof.Proof.Gen.ReferenceIdeal.Read
import proofs.«136513_j40166534152796_2_alg».proof.Proof.Gen.Pre_finite_inputs
import proofs.«136513_j40166534152796_2_alg».proof.Proof.KernelRun
import proofs.«136513_j40166534152796_2_alg».proof.Proof.RefIsSpec
import proofs.«136513_j40166534152796_2_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- Both idealized programs end with the specification's context and weights of arguments that agree and are finite. -/
theorem algebraic : Cert.algebraic_KernelIdeal_ReferenceIdeal := by
  intro m ρ m' ρ' hpre hagree
  have hre := fun c => Cert.Finite.real_of_pre m hpre c
  refine ⟨fun c => Cert.Spec.context (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Spec.weights (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KRun.run m ρ (fun c => (hre c).1) (fun c => (hre c).2.1), ?_⟩
  refine (θ_run Cert.ReferenceIdeal.defs _ _).mono (fun _ h c => ?_) (Cert.ReferenceIdeal.Value.run (F := Ideal) m' ρ')
  obtain ⟨h5, h4, ha0, ha1, ha2⟩ := h c
  refine ⟨h5.trans ?_, h4.trans ?_, ha0, ha1, ha2⟩
  · rw [Cert.ReferenceIdeal.Read.val_main_v5_eq, Cert.RefIsSpec.ref_context, (hagree c).1, (hagree c).2.1, (hagree c).2.2]
  · rw [Cert.ReferenceIdeal.Read.val_main_v4_eq, Cert.RefIsSpec.ref_weights, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
